-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  main_v18

def fn {F : FTy → Type} [FloatOps F] (main_arg0 : FVec F S4x2048x2048 .f32) (main_arg1 : FVec F S8192x2048 .f32) (main_arg2 : FVec F S8192x2048 .f32) (main_arg3 : FVec F S2048x8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_v13 main_v16
-- ==== Kernel.lean ====
abbrev S4x2048x2048 : Shape := ⟨3, ![4, 2048, 2048]⟩
abbrev S8192x2048 : Shape := ⟨2, ![8192, 2048]⟩
abbrev S2048x8192 : Shape := ⟨2, ![2048, 8192]⟩
abbrev S1024x2048 : Shape := ⟨2, ![1024, 2048]⟩
abbrev S256x2048 : Shape := ⟨2, ![256, 2048]⟩
abbrev S2048x256 : Shape := ⟨2, ![2048, 256]⟩
abbrev S1024x256 : Shape := ⟨2, ![1024, 256]⟩

abbrev nBuf : Space → Nat
  | .hbm => 11
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192x2048, .f32⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S2048x8192, .bf16⟩
  | .hbm, ⟨9, _⟩ => ⟨S8192x2048, .f32⟩
  | .hbm, ⟨10, _⟩ => ⟨S4x2048x2048, .f32⟩
  | .local _ .vmem, ⟨0, _⟩ => ⟨S1024x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S2048x256, .bf16⟩
  | .local _ .vmem, ⟨6, _⟩ => ⟨S2048x256, .bf16⟩
  | .local _ .vmem, ⟨7, _⟩ => ⟨S1024x2048, .f32⟩
  | .local _ .vmem, ⟨8, _⟩ => ⟨S1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg1 : BitVec 32 := BitVec.ofNat 32 (i 1).val
  let c0_i32_10 : BitVec 32 := 0#32
  let v18 : BitVec 1 := Scalar.cmpi .ne arg1 c0_i32_10
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x2048x2048_S8192x2048 : S4x2048x2048.ShapeCasts S8192x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S8192x2048_S4x2048x2048 : S8192x2048.ShapeCasts S4x2048x2048
  dot_S1024x2048_S256x2048_S1024x256_1_1_0_0_n_n_wf : DotDims.WF S1024x2048 S256x2048 S1024x256 [1] [1] [0] [0] [] []
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .bf16 = 32 ∨ (Rect.block (s := S8192x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .bf16 = 32 ∨ (Rect.block (s := S8192x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x8192.size a
  hwx0_3 : ∀ i : grid0.Coords, EltTy.bits .bf16 = 32 ∨ (Rect.block (s := S2048x8192) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S8192x2048.size a
  hwx0_4 : ∀ i : grid0.Coords, EltTy.bits .f32 = 32 ∨ (Rect.block (s := S8192x2048) S1024x2048.size (cc0_transform_4 i) (hinb0_4 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_v1) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S2048x8192 : Shape := ⟨2, ![2048, 8192]⟩
abbrev S4x2048x8192 : Shape := ⟨3, ![4, 2048, 8192]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S4x2048x8192, .f32⟩
  | .hbm, ⟨5, _⟩ => ⟨S4x2048x8192, .f32⟩
  | .hbm, ⟨6, _⟩ => ⟨S4x2048x8192, .f32⟩
  | .hbm, ⟨7, _⟩ => ⟨S4x2048x8192, .f32⟩
  | .hbm, ⟨8, _⟩ => ⟨S_, .f32⟩
  | .hbm, ⟨9, _⟩ => ⟨S4x2048x8192, .f32⟩
  | .hbm, ⟨10, _⟩ => ⟨S4x2048x8192, .f32⟩
  | .hbm, ⟨11, _⟩ => ⟨S_, .f32⟩
  | .hbm, ⟨12, _⟩ => ⟨S4x2048x8192, .f32⟩
  | .hbm, ⟨13, _⟩ => ⟨S4x2048x8192, .f32⟩
  | .hbm, ⟨14, _⟩ => ⟨S4x2048x8192, .f32⟩
  | .hbm, ⟨15, _⟩ => ⟨S4x2048x8192, .f32⟩
  | .hbm, ⟨16, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S4x2048x8192 : S_.BroadcastsInDim S4x2048x8192 (![] : Fin 0 → Fin S4x2048x8192.rank)
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.KCases.lean ====
/-
  The grid of the gated-MLP kernel has 8 × 32 points, the second coordinate running over the 32 slices of the
  hidden axis. The body resets its output block at the first slice of a row tile and adds into it at the 31 later
  ones: this module decides, over the 256 points, which of the two branches each point takes, and that the output
  window is never idle (one of the two branches always stores).
-/
import proofs.«152820_j5214090297425_2_alg».proof.Proof.Gen.Kernel.Frame
import proofs.«152820_j5214090297425_2_alg».proof.Proof.Gen.Kernel.Skeleton

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset branch is taken exactly at the first hidden slice of a row tile. -/
theorem first_iff : ∀ t : Fin cfg0.N, k0_cond1 (grid0.coords t) = 1#1 ↔ t.val % 32 = 0 :=
  (by decide +kernel : ∀ t : Fin grid0.N, k0_cond1 (grid0.coords t) = 1#1 ↔ t.val % 32 = 0)

/-- The accumulating branch is taken exactly at the later slices. -/
theorem later_iff : ∀ t : Fin cfg0.N, k0_cond2 (grid0.coords t) = 1#1 ↔ ¬ t.val % 32 = 0 :=
  (by decide +kernel : ∀ t : Fin grid0.N, k0_cond2 (grid0.coords t) = 1#1 ↔ ¬ t.val % 32 = 0)

/-- One of the two branches stores at every point: the output window is never idle. -/
theorem live_out : ∀ i : grid0.Coords, cfg0.idle 4 i = false := by
  intro i
  have key : ∀ h : Fin 32,
      (!(Scalar.cmpi .ne (Scalar.extui (Scalar.cmpi .eq (BitVec.ofNat 32 h.val) 0#32)) 0#32 == 1#1)
        && !(Scalar.cmpi .ne (Scalar.extui (Scalar.cmpi .ne (BitVec.ofNat 32 h.val) 0#32)) 0#32 == 1#1)) = false := by
    decide
  exact key (i 1)

/-- Each window's current staging buffer at point `t`, as the pipeline hands it to the body. -/
abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x2048 .f32 := win0_4.stage (cfg0.slots t 4)
abbrev hs4 (t : Fin cfg0.N) : (ms4 t).IsWhole := hstage0_4 ((cfg0.slots t 4).cast nbuf0_4)

/-- One staging buffer of the output window, through which block contents are stated. -/
abbrev VOut : View sig .tc .vmem S1024x2048 .f32 := (Memref.whole cc0_stg4_0 : Memref sig .tc .vmem S1024x2048 .f32).view

end Cert.Kernel.Acc

end
-- ==== Proof.KRunFirst.lean ====
/-
  The body of the gated-MLP kernel at the FIRST hidden slice of a row tile: it loads the four input blocks (and,
  idly, the output block), and stores the slice's contribution — the down-projection of the gated product — over
  the whole output block. Stated on any whole staging buffers; the stored pieces are found by running the body.
-/
import proofs.«152820_j5214090297425_2_alg».proof.Proof.KCases

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the output block when the reset branch is taken and the accumulating branch is
    not, with the proof that from whole staging buffers — the inputs at their blocks, the output at anything — the
    body runs to a continuation that gets the inputs back unchanged and the output with those pieces written. -/
noncomputable def runFirst (c : Dev nD) (i : grid0.Coords)
    (arg2 : Memref sig .tc .vmem S1024x2048 .bf16) (harg2 : arg2.IsWhole) (arg3 : Memref sig .tc .vmem S256x2048 .bf16) (harg3 : arg3.IsWhole)
    (arg4 : Memref sig .tc .vmem S256x2048 .bf16) (harg4 : arg4.IsWhole) (arg5 : Memref sig .tc .vmem S2048x256 .bf16) (harg5 : arg5.IsWhole)
    (arg6 : Memref sig .tc .vmem S1024x2048 .f32) (harg6 : arg6.IsWhole)
    (hc1 : k0_cond1 i = 1#1) (hc2 : ¬ k0_cond2 i = 1#1)
    (x0 : Vec F S1024x2048 .bf16) (x1 : Vec F S256x2048 .bf16) (x2 : Vec F S256x2048 .bf16) (x3 : Vec F S2048x256 .bf16) :
    { L : List (View.Piece (Elt F) S1024x2048 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__mlp_kernel i arg2 harg2 arg3 harg3 arg4 harg4 arg5 harg5 arg6 harg6) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Acc

end
-- ==== Proof.KRunLater.lean ====
/-
  The body of the gated-MLP kernel at a LATER hidden slice of a row tile: it loads the four input blocks and the
  running output block, and stores the running block plus the slice's contribution over the whole output block.
  Stated on any whole staging buffers; the stored pieces are found by running the body.
-/
import proofs.«152820_j5214090297425_2_alg».proof.Proof.KRunFirst

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body leaves in the output block when the accumulating branch is taken and the reset branch is
    not, with the proof that from whole staging buffers — the inputs at their blocks, the output at its running
    contents `xo` — the body runs to a continuation that gets the inputs back unchanged and the output with those
    pieces written. -/
noncomputable def runLater (c : Dev nD) (i : grid0.Coords)
    (arg2 : Memref sig .tc .vmem S1024x2048 .bf16) (harg2 : arg2.IsWhole) (arg3 : Memref sig .tc .vmem S256x2048 .bf16) (harg3 : arg3.IsWhole)
    (arg4 : Memref sig .tc .vmem S256x2048 .bf16) (harg4 : arg4.IsWhole) (arg5 : Memref sig .tc .vmem S2048x256 .bf16) (harg5 : arg5.IsWhole)
    (arg6 : Memref sig .tc .vmem S1024x2048 .f32) (harg6 : arg6.IsWhole)
    (hc1 : ¬ k0_cond1 i = 1#1) (hc2 : k0_cond2 i = 1#1)
    (x0 : Vec F S1024x2048 .bf16) (x1 : Vec F S256x2048 .bf16) (x2 : Vec F S256x2048 .bf16) (x3 : Vec F S2048x256 .bf16)
    (xo : Vec F S1024x2048 .f32) :
    { L : List (View.Piece (Elt F) S1024x2048 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__mlp_kernel i arg2 harg2 arg3 harg3 arg4 harg4 arg5 harg5 arg6 harg6) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Acc

end
-- ==== Proof.KFrame.lean ====
/-
  The frame of the gated-MLP kernel: what the output block holds after each grid point — the first hidden slice
  of a row tile resets it to that slice's contribution, every later slice adds its own to what the slice before
  left, the block being written back only after the last slice —, the pipeline's proof data over that recursion,
  the body's obligation at every point (by the two runs), and the run of the whole program.
-/
import proofs.«152820_j5214090297425_2_alg».proof.Proof.KRunLater
import Idealize.ShloMosaic.Lib.Pipeline.FrameSuffix

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset branch's one store covers the output block. -/
theorem cover_first (c : Dev nD) (i : grid0.Coords) (arg2 : Memref sig .tc .vmem S1024x2048 .bf16) (harg2 : arg2.IsWhole) (arg3 : Memref sig .tc .vmem S256x2048 .bf16) (harg3 : arg3.IsWhole)
    (arg4 : Memref sig .tc .vmem S256x2048 .bf16) (harg4 : arg4.IsWhole) (arg5 : Memref sig .tc .vmem S2048x256 .bf16) (harg5 : arg5.IsWhole)
    (arg6 : Memref sig .tc .vmem S1024x2048 .f32) (harg6 : arg6.IsWhole)
    (hc1 : k0_cond1 i = 1#1) (hc2 : ¬ k0_cond2 i = 1#1) (x0 : Vec F S1024x2048 .bf16) (x1 : Vec F S256x2048 .bf16) (x2 : Vec F S256x2048 .bf16) (x3 : Vec F S2048x256 .bf16) (y : S1024x2048.Idx) :
    ∃ pc ∈ (runFirst c i arg2 harg2 arg3 harg3 arg4 harg4 arg5 harg5 arg6 harg6 hc1 hc2 x0 x1 x2 x3).1, y ∈ pc.1.set :=
  View.cover_of_tiledL (runFirst c i arg2 harg2 arg3 harg3 arg4 harg4 arg5 harg5 arg6 harg6 hc1 hc2 x0 x1 x2 x3).1 S1024x2048.size (by sl_kernel_rfl) y

/-- What the reset branch leaves in the output block. -/
def outFirst (c : Dev nD) (i : grid0.Coords) (arg2 : Memref sig .tc .vmem S1024x2048 .bf16) (harg2 : arg2.IsWhole) (arg3 : Memref sig .tc .vmem S256x2048 .bf16) (harg3 : arg3.IsWhole)
    (arg4 : Memref sig .tc .vmem S256x2048 .bf16) (harg4 : arg4.IsWhole) (arg5 : Memref sig .tc .vmem S2048x256 .bf16) (harg5 : arg5.IsWhole)
    (arg6 : Memref sig .tc .vmem S1024x2048 .f32) (harg6 : arg6.IsWhole)
    (hc1 : k0_cond1 i = 1#1) (hc2 : ¬ k0_cond2 i = 1#1) (x0 : Vec F S1024x2048 .bf16) (x1 : Vec F S256x2048 .bf16) (x2 : Vec F S256x2048 .bf16) (x3 : Vec F S2048x256 .bf16) : Vec F S1024x2048 .f32 :=
  VOut.read (Elt F) (VOut.writes (Elt F) VOut.junk (runFirst c i arg2 harg2 arg3 harg3 arg4 harg4 arg5 harg5 arg6 harg6 hc1 hc2 x0 x1 x2 x3).1)

/-- The accumulating branch's one store covers the output block. -/
theorem cover_later (c : Dev nD) (i : grid0.Coords) (arg2 : Memref sig .tc .vmem S1024x2048 .bf16) (harg2 : arg2.IsWhole) (arg3 : Memref sig .tc .vmem S256x2048 .bf16) (harg3 : arg3.IsWhole)
    (arg4 : Memref sig .tc .vmem S256x2048 .bf16) (harg4 : arg4.IsWhole) (arg5 : Memref sig .tc .vmem S2048x256 .bf16) (harg5 : arg5.IsWhole)
    (arg6 : Memref sig .tc .vmem S1024x2048 .f32) (harg6 : arg6.IsWhole)
    (hc1 : ¬ k0_cond1 i = 1#1) (hc2 : k0_cond2 i = 1#1) (x0 : Vec F S1024x2048 .bf16) (x1 : Vec F S256x2048 .bf16) (x2 : Vec F S256x2048 .bf16) (x3 : Vec F S2048x256 .bf16) (xo : Vec F S1024x2048 .f32) (y : S1024x2048.Idx) :
    ∃ pc ∈ (runLater c i arg2 harg2 arg3 harg3 arg4 harg4 arg5 harg5 arg6 harg6 hc1 hc2 x0 x1 x2 x3 xo).1, y ∈ pc.1.set :=
  View.cover_of_tiledL (runLater c i arg2 harg2 arg3 harg3 arg4 harg4 arg5 harg5 arg6 harg6 hc1 hc2 x0 x1 x2 x3 xo).1 S1024x2048.size (by sl_kernel_rfl) y

/-- What the accumulating branch leaves in the output block, over the running contents `xo`. -/
def outLater (c : Dev nD) (i : grid0.Coords) (arg2 : Memref sig .tc .vmem S1024x2048 .bf16) (harg2 : arg2.IsWhole) (arg3 : Memref sig .tc .vmem S256x2048 .bf16) (harg3 : arg3.IsWhole)
    (arg4 : Memref sig .tc .vmem S256x2048 .bf16) (harg4 : arg4.IsWhole) (arg5 : Memref sig .tc .vmem S2048x256 .bf16) (harg5 : arg5.IsWhole)
    (arg6 : Memref sig .tc .vmem S1024x2048 .f32) (harg6 : arg6.IsWhole)
    (hc1 : ¬ k0_cond1 i = 1#1) (hc2 : k0_cond2 i = 1#1) (x0 : Vec F S1024x2048 .bf16) (x1 : Vec F S256x2048 .bf16) (x2 : Vec F S256x2048 .bf16) (x3 : Vec F S2048x256 .bf16) (xo : Vec F S1024x2048 .f32) : Vec F S1024x2048 .f32 :=
  VOut.read (Elt F) (VOut.writes (Elt F) VOut.junk (runLater c i arg2 harg2 arg3 harg3 arg4 harg4 arg5 harg5 arg6 harg6 hc1 hc2 x0 x1 x2 x3 xo).1)

/-! ## The output block after each point -/

/-- The accumulation: the output block after the body at position `n` of the grid — a reset at the first hidden
    slice of each row tile, else the slice's contribution added to what position `n - 1` left. -/
def outsAt (c : Dev nD) : (n : ℕ) → n < cfg0.N → Vec F S1024x2048 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩) (iblk m c 2 ⟨0, hn⟩) (iblk m c 3 ⟨0, hn⟩)
  | n + 1, hn =>
    if h0 : (n + 1) % 32 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((first_iff ⟨n + 1, hn⟩).mpr h0) (fun h => (later_iff ⟨n + 1, hn⟩).mp h h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (iblk m c 2 ⟨n + 1, hn⟩) (iblk m c 3 ⟨n + 1, hn⟩) (outsAt c n (Nat.lt_of_succ_lt hn))

/-- At a first slice: the reset. -/
theorem outsAt_first (c : Dev nD) (t : Fin cfg0.N) (h0 : t.val % 32 = 0) :
    outsAt m c t.val t.isLt = outFirst c (grid0.coords t) (ms0 t) (hs0 t) (ms1 t) (hs1 t) (ms2 t) (hs2 t) (ms3 t) (hs3 t) (ms4 t) (hs4 t) ((first_iff t).mpr h0) (fun h => (later_iff t).mp h h0) (iblk m c 0 t) (iblk m c 1 t) (iblk m c 2 t) (iblk m c 3 t) := by
  obtain ⟨n, hn⟩ := t
  cases n with
  | zero => exact rfl
  | succ n => exact (dif_pos h0).trans rfl

/-- At a later slice: the contribution over what the point before left. -/
theorem outsAt_later (c : Dev nD) (t : Fin cfg0.N) (h0 : ¬ t.val % 32 = 0) :
    outsAt m c t.val t.isLt = outLater c (grid0.coords t) (ms0 t) (hs0 t) (ms1 t) (hs1 t) (ms2 t) (hs2 t) (ms3 t) (hs3 t) (ms4 t) (hs4 t) (fun h => h0 ((first_iff t).mp h)) ((later_iff t).mpr h0) (iblk m c 0 t) (iblk m c 1 t) (iblk m c 2 t) (iblk m c 3 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block, the output's at the
    accumulation; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outsAt m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a later slice the output's current staging buffer holds what the body left at the point before: the block
    is written back only after the last slice of a row tile, and the window is never idle and never clipped. -/
theorem before_4_later (c : Dev nD) (t : Fin cfg0.N) (h0 : ¬ t.val % 32 = 0) (d) :
    (dats m 0 c).before 4 t d = outsAt m c (t.val - 1) (Nat.lt_of_le_of_lt (Nat.sub_le _ _) t.isLt) := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    live_out (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks; the point is a first slice or a later one, and
    at a later one the output's buffer holds what the point before left; so the matching run applies, and its one
    store covers the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val % 32 = 0
  · rw [outsAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((first_iff t).mpr h0) (fun h => (later_iff t).mp h h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_first c _ _ _ _ _ _ _ _ _ _ _ _ _ _ _ _ _)
  · rw [outsAt_later m c t h0]
    simp only [before_4_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((first_iff t).mp h)) ((later_iff t).mpr h0) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_later c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [show cfg0.idle 4 (cfg0.grid.coords t) = false from live_out _]
  exact sound_body m c t

/-! ## The run and the frame -/

set_option backward.isDefEq.respectTransparency.types false in
/-- Every weakly fair execution of the program terminates, and every final state has every array of the pipeline
    at what the library computes from the proof data, every other unscoped buffer as the lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Acc

end
-- ==== Proof.KICases.lean ====
/-
  The grid of the gated-MLP kernel has 8 × 32 points, the second coordinate running over the 32 slices of the
  hidden axis. The body resets its output block at the first slice of a row tile and adds into it at the 31 later
  ones: this module decides, over the 256 points, which of the two branches each point takes, and that the output
  window is never idle (one of the two branches always stores).
-/
import proofs.«152820_j5214090297425_2_alg».proof.Proof.Gen.KernelIdeal.Frame
import proofs.«152820_j5214090297425_2_alg».proof.Proof.Gen.KernelIdeal.Skeleton

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset branch is taken exactly at the first hidden slice of a row tile. -/
theorem first_iff : ∀ t : Fin cfg0.N, k0_cond1 (grid0.coords t) = 1#1 ↔ t.val % 32 = 0 :=
  (by decide +kernel : ∀ t : Fin grid0.N, k0_cond1 (grid0.coords t) = 1#1 ↔ t.val % 32 = 0)

/-- The accumulating branch is taken exactly at the later slices. -/
theorem later_iff : ∀ t : Fin cfg0.N, k0_cond2 (grid0.coords t) = 1#1 ↔ ¬ t.val % 32 = 0 :=
  (by decide +kernel : ∀ t : Fin grid0.N, k0_cond2 (grid0.coords t) = 1#1 ↔ ¬ t.val % 32 = 0)

/-- One of the two branches stores at every point: the output window is never idle. -/
theorem live_out : ∀ i : grid0.Coords, cfg0.idle 4 i = false := by
  intro i
  have key : ∀ h : Fin 32,
      (!(Scalar.cmpi .ne (Scalar.extui (Scalar.cmpi .eq (BitVec.ofNat 32 h.val) 0#32)) 0#32 == 1#1)
        && !(Scalar.cmpi .ne (Scalar.extui (Scalar.cmpi .ne (BitVec.ofNat 32 h.val) 0#32)) 0#32 == 1#1)) = false := by
    decide
  exact key (i 1)

/-- Each window's current staging buffer at point `t`, as the pipeline hands it to the body. -/
abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x2048 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x2048 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x2048 .f32 := win0_4.stage (cfg0.slots t 4)
abbrev hs4 (t : Fin cfg0.N) : (ms4 t).IsWhole := hstage0_4 ((cfg0.slots t 4).cast nbuf0_4)

/-- One staging buffer of the output window, through which block contents are stated. -/
abbrev VOut : View sig .tc .vmem S1024x2048 .f32 := (Memref.whole cc0_stg4_0 : Memref sig .tc .vmem S1024x2048 .f32).view

end Cert.KernelIdeal.Acc

end
-- ==== Proof.KIRunFirst.lean ====
/-
  The body of the gated-MLP kernel at the FIRST hidden slice of a row tile: it loads the four input blocks (and,
  idly, the output block), and stores the slice's contribution — the down-projection of the gated product — over
  the whole output block. Stated on any whole staging buffers; the stored pieces are found by running the body.
-/
import proofs.«152820_j5214090297425_2_alg».proof.Proof.KICases

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the output block when the reset branch is taken and the accumulating branch is
    not, with the proof that from whole staging buffers — the inputs at their blocks, the output at anything — the
    body runs to a continuation that gets the inputs back unchanged and the output with those pieces written. -/
noncomputable def runFirst (c : Dev nD) (i : grid0.Coords)
    (arg2 : Memref sig .tc .vmem S1024x2048 .bf16) (harg2 : arg2.IsWhole) (arg3 : Memref sig .tc .vmem S256x2048 .bf16) (harg3 : arg3.IsWhole)
    (arg4 : Memref sig .tc .vmem S256x2048 .bf16) (harg4 : arg4.IsWhole) (arg5 : Memref sig .tc .vmem S2048x256 .bf16) (harg5 : arg5.IsWhole)
    (arg6 : Memref sig .tc .vmem S1024x2048 .f32) (harg6 : arg6.IsWhole)
    (hc1 : k0_cond1 i = 1#1) (hc2 : ¬ k0_cond2 i = 1#1)
    (x0 : Vec F S1024x2048 .bf16) (x1 : Vec F S256x2048 .bf16) (x2 : Vec F S256x2048 .bf16) (x3 : Vec F S2048x256 .bf16) :
    { L : List (View.Piece (Elt F) S1024x2048 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__mlp_kernel i arg2 harg2 arg3 harg3 arg4 harg4 arg5 harg5 arg6 harg6) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Acc

end
-- ==== Proof.KIRunLater.lean ====
/-
  The body of the gated-MLP kernel at a LATER hidden slice of a row tile: it loads the four input blocks and the
  running output block, and stores the running block plus the slice's contribution over the whole output block.
  Stated on any whole staging buffers; the stored pieces are found by running the body.
-/
import proofs.«152820_j5214090297425_2_alg».proof.Proof.KIRunFirst

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body leaves in the output block when the accumulating branch is taken and the reset branch is
    not, with the proof that from whole staging buffers — the inputs at their blocks, the output at its running
    contents `xo` — the body runs to a continuation that gets the inputs back unchanged and the output with those
    pieces written. -/
noncomputable def runLater (c : Dev nD) (i : grid0.Coords)
    (arg2 : Memref sig .tc .vmem S1024x2048 .bf16) (harg2 : arg2.IsWhole) (arg3 : Memref sig .tc .vmem S256x2048 .bf16) (harg3 : arg3.IsWhole)
    (arg4 : Memref sig .tc .vmem S256x2048 .bf16) (harg4 : arg4.IsWhole) (arg5 : Memref sig .tc .vmem S2048x256 .bf16) (harg5 : arg5.IsWhole)
    (arg6 : Memref sig .tc .vmem S1024x2048 .f32) (harg6 : arg6.IsWhole)
    (hc1 : ¬ k0_cond1 i = 1#1) (hc2 : k0_cond2 i = 1#1)
    (x0 : Vec F S1024x2048 .bf16) (x1 : Vec F S256x2048 .bf16) (x2 : Vec F S256x2048 .bf16) (x3 : Vec F S2048x256 .bf16)
    (xo : Vec F S1024x2048 .f32) :
    { L : List (View.Piece (Elt F) S1024x2048 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xo
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E (cc0__mlp_kernel i arg2 harg2 arg3 harg3 arg4 harg4 arg5 harg5 arg6 harg6) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3
    obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Acc

end
-- ==== Proof.KIFrame.lean ====
/-
  The frame of the gated-MLP kernel: what the output block holds after each grid point — the first hidden slice
  of a row tile resets it to that slice's contribution, every later slice adds its own to what the slice before
  left, the block being written back only after the last slice —, the pipeline's proof data over that recursion,
  the body's obligation at every point (by the two runs), and the run of the whole program.
-/
import proofs.«152820_j5214090297425_2_alg».proof.Proof.KIRunLater
import Idealize.ShloMosaic.Lib.Pipeline.FrameSuffix

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset branch's one store covers the output block. -/
theorem cover_first (c : Dev nD) (i : grid0.Coords) (arg2 : Memref sig .tc .vmem S1024x2048 .bf16) (harg2 : arg2.IsWhole) (arg3 : Memref sig .tc .vmem S256x2048 .bf16) (harg3 : arg3.IsWhole)
    (arg4 : Memref sig .tc .vmem S256x2048 .bf16) (harg4 : arg4.IsWhole) (arg5 : Memref sig .tc .vmem S2048x256 .bf16) (harg5 : arg5.IsWhole)
    (arg6 : Memref sig .tc .vmem S1024x2048 .f32) (harg6 : arg6.IsWhole)
    (hc1 : k0_cond1 i = 1#1) (hc2 : ¬ k0_cond2 i = 1#1) (x0 : Vec F S1024x2048 .bf16) (x1 : Vec F S256x2048 .bf16) (x2 : Vec F S256x2048 .bf16) (x3 : Vec F S2048x256 .bf16) (y : S1024x2048.Idx) :
    ∃ pc ∈ (runFirst c i arg2 harg2 arg3 harg3 arg4 harg4 arg5 harg5 arg6 harg6 hc1 hc2 x0 x1 x2 x3).1, y ∈ pc.1.set :=
  View.cover_of_tiledL (runFirst c i arg2 harg2 arg3 harg3 arg4 harg4 arg5 harg5 arg6 harg6 hc1 hc2 x0 x1 x2 x3).1 S1024x2048.size (by sl_kernel_rfl) y

/-- What the reset branch leaves in the output block. -/
def outFirst (c : Dev nD) (i : grid0.Coords) (arg2 : Memref sig .tc .vmem S1024x2048 .bf16) (harg2 : arg2.IsWhole) (arg3 : Memref sig .tc .vmem S256x2048 .bf16) (harg3 : arg3.IsWhole)
    (arg4 : Memref sig .tc .vmem S256x2048 .bf16) (harg4 : arg4.IsWhole) (arg5 : Memref sig .tc .vmem S2048x256 .bf16) (harg5 : arg5.IsWhole)
    (arg6 : Memref sig .tc .vmem S1024x2048 .f32) (harg6 : arg6.IsWhole)
    (hc1 : k0_cond1 i = 1#1) (hc2 : ¬ k0_cond2 i = 1#1) (x0 : Vec F S1024x2048 .bf16) (x1 : Vec F S256x2048 .bf16) (x2 : Vec F S256x2048 .bf16) (x3 : Vec F S2048x256 .bf16) : Vec F S1024x2048 .f32 :=
  VOut.read (Elt F) (VOut.writes (Elt F) VOut.junk (runFirst c i arg2 harg2 arg3 harg3 arg4 harg4 arg5 harg5 arg6 harg6 hc1 hc2 x0 x1 x2 x3).1)

/-- The accumulating branch's one store covers the output block. -/
theorem cover_later (c : Dev nD) (i : grid0.Coords) (arg2 : Memref sig .tc .vmem S1024x2048 .bf16) (harg2 : arg2.IsWhole) (arg3 : Memref sig .tc .vmem S256x2048 .bf16) (harg3 : arg3.IsWhole)
    (arg4 : Memref sig .tc .vmem S256x2048 .bf16) (harg4 : arg4.IsWhole) (arg5 : Memref sig .tc .vmem S2048x256 .bf16) (harg5 : arg5.IsWhole)
    (arg6 : Memref sig .tc .vmem S1024x2048 .f32) (harg6 : arg6.IsWhole)
    (hc1 : ¬ k0_cond1 i = 1#1) (hc2 : k0_cond2 i = 1#1) (x0 : Vec F S1024x2048 .bf16) (x1 : Vec F S256x2048 .bf16) (x2 : Vec F S256x2048 .bf16) (x3 : Vec F S2048x256 .bf16) (xo : Vec F S1024x2048 .f32) (y : S1024x2048.Idx) :
    ∃ pc ∈ (runLater c i arg2 harg2 arg3 harg3 arg4 harg4 arg5 harg5 arg6 harg6 hc1 hc2 x0 x1 x2 x3 xo).1, y ∈ pc.1.set :=
  View.cover_of_tiledL (runLater c i arg2 harg2 arg3 harg3 arg4 harg4 arg5 harg5 arg6 harg6 hc1 hc2 x0 x1 x2 x3 xo).1 S1024x2048.size (by sl_kernel_rfl) y

/-- What the accumulating branch leaves in the output block, over the running contents `xo`. -/
def outLater (c : Dev nD) (i : grid0.Coords) (arg2 : Memref sig .tc .vmem S1024x2048 .bf16) (harg2 : arg2.IsWhole) (arg3 : Memref sig .tc .vmem S256x2048 .bf16) (harg3 : arg3.IsWhole)
    (arg4 : Memref sig .tc .vmem S256x2048 .bf16) (harg4 : arg4.IsWhole) (arg5 : Memref sig .tc .vmem S2048x256 .bf16) (harg5 : arg5.IsWhole)
    (arg6 : Memref sig .tc .vmem S1024x2048 .f32) (harg6 : arg6.IsWhole)
    (hc1 : ¬ k0_cond1 i = 1#1) (hc2 : k0_cond2 i = 1#1) (x0 : Vec F S1024x2048 .bf16) (x1 : Vec F S256x2048 .bf16) (x2 : Vec F S256x2048 .bf16) (x3 : Vec F S2048x256 .bf16) (xo : Vec F S1024x2048 .f32) : Vec F S1024x2048 .f32 :=
  VOut.read (Elt F) (VOut.writes (Elt F) VOut.junk (runLater c i arg2 harg2 arg3 harg3 arg4 harg4 arg5 harg5 arg6 harg6 hc1 hc2 x0 x1 x2 x3 xo).1)

/-! ## The output block after each point -/

/-- The accumulation: the output block after the body at position `n` of the grid — a reset at the first hidden
    slice of each row tile, else the slice's contribution added to what position `n - 1` left. -/
def outsAt (c : Dev nD) : (n : ℕ) → n < cfg0.N → Vec F S1024x2048 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩) (iblk m c 2 ⟨0, hn⟩) (iblk m c 3 ⟨0, hn⟩)
  | n + 1, hn =>
    if h0 : (n + 1) % 32 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((first_iff ⟨n + 1, hn⟩).mpr h0) (fun h => (later_iff ⟨n + 1, hn⟩).mp h h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (iblk m c 2 ⟨n + 1, hn⟩) (iblk m c 3 ⟨n + 1, hn⟩) (outsAt c n (Nat.lt_of_succ_lt hn))

/-- At a first slice: the reset. -/
theorem outsAt_first (c : Dev nD) (t : Fin cfg0.N) (h0 : t.val % 32 = 0) :
    outsAt m c t.val t.isLt = outFirst c (grid0.coords t) (ms0 t) (hs0 t) (ms1 t) (hs1 t) (ms2 t) (hs2 t) (ms3 t) (hs3 t) (ms4 t) (hs4 t) ((first_iff t).mpr h0) (fun h => (later_iff t).mp h h0) (iblk m c 0 t) (iblk m c 1 t) (iblk m c 2 t) (iblk m c 3 t) := by
  obtain ⟨n, hn⟩ := t
  cases n with
  | zero => exact rfl
  | succ n => exact (dif_pos h0).trans rfl

/-- At a later slice: the contribution over what the point before left. -/
theorem outsAt_later (c : Dev nD) (t : Fin cfg0.N) (h0 : ¬ t.val % 32 = 0) :
    outsAt m c t.val t.isLt = outLater c (grid0.coords t) (ms0 t) (hs0 t) (ms1 t) (hs1 t) (ms2 t) (hs2 t) (ms3 t) (hs3 t) (ms4 t) (hs4 t) (fun h => h0 ((first_iff t).mp h)) ((later_iff t).mpr h0) (iblk m c 0 t) (iblk m c 1 t) (iblk m c 2 t) (iblk m c 3 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block, the output's at the
    accumulation; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outsAt m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a later slice the output's current staging buffer holds what the body left at the point before: the block
    is written back only after the last slice of a row tile, and the window is never idle and never clipped. -/
theorem before_4_later (c : Dev nD) (t : Fin cfg0.N) (h0 : ¬ t.val % 32 = 0) (d) :
    (dats m 0 c).before 4 t d = outsAt m c (t.val - 1) (Nat.lt_of_le_of_lt (Nat.sub_le _ _) t.isLt) := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    live_out (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks; the point is a first slice or a later one, and
    at a later one the output's buffer holds what the point before left; so the matching run applies, and its one
    store covers the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val % 32 = 0
  · rw [outsAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((first_iff t).mpr h0) (fun h => (later_iff t).mp h h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_first c _ _ _ _ _ _ _ _ _ _ _ _ _ _ _ _ _)
  · rw [outsAt_later m c t h0]
    simp only [before_4_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((first_iff t).mp h)) ((later_iff t).mpr h0) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover_later c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  rw [show cfg0.idle 4 (cfg0.grid.coords t) = false from live_out _]
  exact sound_body m c t

/-! ## The run and the frame -/

set_option backward.isDefEq.respectTransparency.types false in
/-- Every weakly fair execution of the program terminates, and every final state has every array of the pipeline
    at what the library computes from the proof data, every other unscoped buffer as the lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Acc

end
-- ==== Proof.KIPieces.lean ====
/-
  What the two branches of the gated-MLP kernel leave in the output block, as values: at the first hidden slice
  the slice's contribution (the down-projection of the gated product of the loaded blocks), at a later slice the
  running block plus that contribution. Each branch makes one store over the whole block, so the block read back
  is that store's payload of the loaded blocks.
-/
import proofs.«152820_j5214090297425_2_alg».proof.Proof.KIFrame
import Idealize.ShloMosaic.Lib.Pipeline.Value

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The reset branch leaves the slice's contribution. -/
theorem outFirst_eq (c : Dev nD) (i : grid0.Coords) (arg2 : Memref sig .tc .vmem S1024x2048 .bf16) (harg2 : arg2.IsWhole) (arg3 : Memref sig .tc .vmem S256x2048 .bf16) (harg3 : arg3.IsWhole)
    (arg4 : Memref sig .tc .vmem S256x2048 .bf16) (harg4 : arg4.IsWhole) (arg5 : Memref sig .tc .vmem S2048x256 .bf16) (harg5 : arg5.IsWhole)
    (arg6 : Memref sig .tc .vmem S1024x2048 .f32) (harg6 : arg6.IsWhole)
    (hc1 : k0_cond1 i = 1#1) (hc2 : ¬ k0_cond2 i = 1#1) (x0 : Vec F S1024x2048 .bf16) (x1 : Vec F S256x2048 .bf16) (x2 : Vec F S256x2048 .bf16) (x3 : Vec F S2048x256 .bf16) :
    outFirst c i arg2 harg2 arg3 harg3 arg4 harg4 arg5 harg5 arg6 harg6 hc1 hc2 x0 x1 x2 x3 = k0_pay1 x0 x1 x2 x3 := by
  unfold outFirst
  rw [View.read_writes_eq_canon _ _ _ (cover_first c i arg2 harg2 arg3 harg3 arg4 harg4 arg5 harg5 arg6 harg6 hc1 hc2 x0 x1 x2 x3)]
  unfold runFirst
  dsimp only
  rw [View.canon_unit_zero hz]
  simp only [View.readAt_eq_ld, harg2.read_unread, harg3.read_unread, harg4.read_unread, harg5.read_unread,
    View.ld_unit_zero (S := S1024x2048) hz, View.ld_unit_zero (S := S256x2048) hz, View.ld_unit_zero (S := S2048x256) hz]

/-- The accumulating branch leaves the running block plus the slice's contribution. -/
theorem outLater_eq (c : Dev nD) (i : grid0.Coords) (arg2 : Memref sig .tc .vmem S1024x2048 .bf16) (harg2 : arg2.IsWhole) (arg3 : Memref sig .tc .vmem S256x2048 .bf16) (harg3 : arg3.IsWhole)
    (arg4 : Memref sig .tc .vmem S256x2048 .bf16) (harg4 : arg4.IsWhole) (arg5 : Memref sig .tc .vmem S2048x256 .bf16) (harg5 : arg5.IsWhole)
    (arg6 : Memref sig .tc .vmem S1024x2048 .f32) (harg6 : arg6.IsWhole)
    (hc1 : ¬ k0_cond1 i = 1#1) (hc2 : k0_cond2 i = 1#1) (x0 : Vec F S1024x2048 .bf16) (x1 : Vec F S256x2048 .bf16) (x2 : Vec F S256x2048 .bf16) (x3 : Vec F S2048x256 .bf16) (xo : Vec F S1024x2048 .f32) :
    outLater c i arg2 harg2 arg3 harg3 arg4 harg4 arg5 harg5 arg6 harg6 hc1 hc2 x0 x1 x2 x3 xo = addf xo (k0_pay1 x0 x1 x2 x3) := by
  unfold outLater
  rw [View.read_writes_eq_canon _ _ _ (cover_later c i arg2 harg2 arg3 harg3 arg4 harg4 arg5 harg5 arg6 harg6 hc1 hc2 x0 x1 x2 x3 xo)]
  unfold runLater
  dsimp only
  rw [View.canon_unit_zero hz]
  unfold k0_pay2
  simp only [View.readAt_eq_ld, harg2.read_unread, harg3.read_unread, harg4.read_unread, harg5.read_unread, harg6.read_unread,
    View.ld_unit_zero (S := S1024x2048) hz, View.ld_unit_zero (S := S256x2048) hz, View.ld_unit_zero (S := S2048x256) hz,
    shapeCast_self]

end Cert.KernelIdeal.Acc

end
-- ==== Proof.KIMatmul.lean ====
/-
  The three matrix products of the gated-MLP kernel's body read at an index, on the extended reals: each is a
  product of a block with the TRANSPOSE of another (both operands contract their second axis), into a zero
  accumulator, so entry (r, n) is the sum over d of a(r, d) · b(n, d). Then the slice's whole contribution at an
  entry: with g and u the gate and up pre-activations of the 256 hidden units of the slice, the sum over those
  units of g · logistic g · u times the down weight.
-/
import proofs.«152820_j5214090297425_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Acc

open Idealize.ShloMosaic Idealize.ShloMosaic.ValueIdx Cert.KernelIdeal Cert.KernelIdeal.Gen

theorem up_l0 (i : S1024x256.Idx) (q : dot_S1024x2048_S256x2048_S1024x256_1_1_0_0_n_n.contr.Idx) : (dot_S1024x2048_S256x2048_S1024x256_1_1_0_0_n_n.lhsIdx i q 0).val = (i 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl
theorem up_l1 (i : S1024x256.Idx) (q : dot_S1024x2048_S256x2048_S1024x256_1_1_0_0_n_n.contr.Idx) : (dot_S1024x2048_S256x2048_S1024x256_1_1_0_0_n_n.lhsIdx i q 1).val = (q ⟨0, by decide⟩).val :=
  dot_S1024x2048_S256x2048_S1024x256_1_1_0_0_n_n.lhsIdx_val_of_single rfl i q
theorem up_r0 (i : S1024x256.Idx) (q : dot_S1024x2048_S256x2048_S1024x256_1_1_0_0_n_n.contr.Idx) : (dot_S1024x2048_S256x2048_S1024x256_1_1_0_0_n_n.rhsIdx i q 0).val = (i 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl
theorem up_r1 (i : S1024x256.Idx) (q : dot_S1024x2048_S256x2048_S1024x256_1_1_0_0_n_n.contr.Idx) : (dot_S1024x2048_S256x2048_S1024x256_1_1_0_0_n_n.rhsIdx i q 1).val = (q ⟨0, by decide⟩).val :=
  dot_S1024x2048_S256x2048_S1024x256_1_1_0_0_n_n.rhsIdx_val_of_single rfl i q

theorem down_l0 (i : S1024x2048.Idx) (q : dot_S1024x256_S2048x256_S1024x2048_1_1_0_0_n_n.contr.Idx) : (dot_S1024x256_S2048x256_S1024x2048_1_1_0_0_n_n.lhsIdx i q 0).val = (i 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem down_l1 (i : S1024x2048.Idx) (q : dot_S1024x256_S2048x256_S1024x2048_1_1_0_0_n_n.contr.Idx) : (dot_S1024x256_S2048x256_S1024x2048_1_1_0_0_n_n.lhsIdx i q 1).val = (q ⟨0, by decide⟩).val :=
  dot_S1024x256_S2048x256_S1024x2048_1_1_0_0_n_n.lhsIdx_val_of_single rfl i q
theorem down_r0 (i : S1024x2048.Idx) (q : dot_S1024x256_S2048x256_S1024x2048_1_1_0_0_n_n.contr.Idx) : (dot_S1024x256_S2048x256_S1024x2048_1_1_0_0_n_n.rhsIdx i q 0).val = (i 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem down_r1 (i : S1024x2048.Idx) (q : dot_S1024x256_S2048x256_S1024x2048_1_1_0_0_n_n.contr.Idx) : (dot_S1024x256_S2048x256_S1024x2048_1_1_0_0_n_n.rhsIdx i q 1).val = (q ⟨0, by decide⟩).val :=
  dot_S1024x256_S2048x256_S1024x2048_1_1_0_0_n_n.rhsIdx_val_of_single rfl i q

/-- A row tile of activations against a slice of gate or up weights: entry (r, k) is the dot product of row r with weight row k. -/
theorem proj_apply (a : FVec Ideal S1024x2048 .bf16) (b : FVec Ideal S256x2048 .bf16) (r : Fin 1024) (n : Fin 256) :
    matmul dot_S1024x2048_S256x2048_S1024x256_1_1_0_0_n_n none a b (constant (F := Ideal) S1024x256 .f32 0x00000000#32) (ix2 r n)
      = ∑ d : Fin 2048, a (ix2 r d) * b (ix2 n d) := by
  refine (Ideal.matmul_constant_zero_apply dot_S1024x2048_S256x2048_S1024x256_1_1_0_0_n_n none a b (ix2 r n)).trans ?_
  rw [← Equiv.sum_comp (ValueIdx.contrEquiv1 dot_S1024x2048_S256x2048_S1024x256_1_1_0_0_n_n 2048 rfl rfl).symm]
  refine Finset.sum_congr rfl fun d _ => ?_
  have hk := ValueIdx.contrEquiv1_symm_val dot_S1024x2048_S256x2048_S1024x256_1_1_0_0_n_n 2048 rfl rfl d
  have el : dot_S1024x2048_S256x2048_S1024x256_1_1_0_0_n_n.lhsIdx (ix2 r n) ((ValueIdx.contrEquiv1 dot_S1024x2048_S256x2048_S1024x256_1_1_0_0_n_n 2048 rfl rfl).symm d) = ix2 r d := funext fun x => Fin.ext (by
    match x with
    | ⟨0, _⟩ => exact up_l0 _ _
    | ⟨1, _⟩ => exact (up_l1 _ _).trans hk)
  have er : dot_S1024x2048_S256x2048_S1024x256_1_1_0_0_n_n.rhsIdx (ix2 r n) ((ValueIdx.contrEquiv1 dot_S1024x2048_S256x2048_S1024x256_1_1_0_0_n_n 2048 rfl rfl).symm d) = ix2 n d := funext fun x => Fin.ext (by
    match x with
    | ⟨0, _⟩ => exact up_r0 _ _
    | ⟨1, _⟩ => exact (up_r1 _ _).trans hk)
  rw [el, er]

/-- The gated slice against the slice of down weights: entry (r, n) is the dot product over the slice's hidden units. -/
theorem down_apply (a : FVec Ideal S1024x256 .bf16) (b : FVec Ideal S2048x256 .bf16) (r : Fin 1024) (n : Fin 2048) :
    matmul dot_S1024x256_S2048x256_S1024x2048_1_1_0_0_n_n none a b (constant (F := Ideal) S1024x2048 .f32 0x00000000#32) (ix2 r n)
      = ∑ d : Fin 256, a (ix2 r d) * b (ix2 n d) := by
  refine (Ideal.matmul_constant_zero_apply dot_S1024x256_S2048x256_S1024x2048_1_1_0_0_n_n none a b (ix2 r n)).trans ?_
  rw [← Equiv.sum_comp (ValueIdx.contrEquiv1 dot_S1024x256_S2048x256_S1024x2048_1_1_0_0_n_n 256 rfl rfl).symm]
  refine Finset.sum_congr rfl fun d _ => ?_
  have hk := ValueIdx.contrEquiv1_symm_val dot_S1024x256_S2048x256_S1024x2048_1_1_0_0_n_n 256 rfl rfl d
  have el : dot_S1024x256_S2048x256_S1024x2048_1_1_0_0_n_n.lhsIdx (ix2 r n) ((ValueIdx.contrEquiv1 dot_S1024x256_S2048x256_S1024x2048_1_1_0_0_n_n 256 rfl rfl).symm d) = ix2 r d := funext fun x => Fin.ext (by
    match x with
    | ⟨0, _⟩ => exact down_l0 _ _
    | ⟨1, _⟩ => exact (down_l1 _ _).trans hk)
  have er : dot_S1024x256_S2048x256_S1024x2048_1_1_0_0_n_n.rhsIdx (ix2 r n) ((ValueIdx.contrEquiv1 dot_S1024x256_S2048x256_S1024x2048_1_1_0_0_n_n 256 rfl rfl).symm d) = ix2 n d := funext fun x => Fin.ext (by
    match x with
    | ⟨0, _⟩ => exact down_r0 _ _
    | ⟨1, _⟩ => exact (down_r1 _ _).trans hk)
  rw [el, er]

/-- The logistic function acts entry by entry. -/
theorem logistic_apply {s : Shape} {φ : FTy} (a : FVec Ideal s φ) (i : s.Idx) : logistic a i = Ideal.logistic (a i) := rfl

/-- The slice's contribution at entry (r, n). -/
theorem pay1_apply (x0 : Vec Ideal S1024x2048 .bf16) (x1 x2 : Vec Ideal S256x2048 .bf16) (x3 : Vec Ideal S2048x256 .bf16)
    (r : Fin 1024) (n : Fin 2048) :
    k0_pay1 (F := Ideal) x0 x1 x2 x3 (ix2 r n)
      = ∑ k : Fin 256, ((∑ d : Fin 2048, x0 (ix2 r d) * x1 (ix2 k d)) * Ideal.logistic (∑ d : Fin 2048, x0 (ix2 r d) * x1 (ix2 k d))
            * (∑ d : Fin 2048, x0 (ix2 r d) * x2 (ix2 k d))) * x3 (ix2 n k) := by
  unfold k0_pay1
  simp only [shapeCast_self]
  refine (down_apply _ _ r n).trans ?_
  refine Finset.sum_congr rfl fun k _ => ?_
  rw [truncf_apply, mulf_apply, mulf_apply, logistic_apply, proj_apply, proj_apply]

end Cert.KernelIdeal.Acc

end
-- ==== Proof.LibFlattenSum.lean ====
/-
  Sums over a flattened pair of feature blocks, regrouped.

  A row of 2·D·P features is laid out as two blocks of D·P features, each block indexed by (d, p) with
  p fastest: feature n = P·d + p in the first block, D·P + P·d + p in the second. Summing a function of the
  feature over the whole row is the same as summing, for each p, the two blocks' columns d — in any
  commutative monoid, so in particular on the extended reals with no finiteness assumed. Also: a sum over
  p < 2·Q split into its two halves, and a left-nested running sum from zero read as a finite sum.
-/
import Mathlib

namespace Cert.LibFlattenSum

open Finset

variable {M : Type*} [AddCommMonoid M]

/-- A sum over `Fin (D * P)` read as a double sum: `n = P * d + p`, the column `p` outermost. -/
theorem sum_block (D P : ℕ) (f : ℕ → M) :
    ∑ n : Fin (D * P), f n.val = ∑ p : Fin P, ∑ d : Fin D, f (P * d.val + p.val) := by
  rw [Finset.sum_comm]
  rw [← (finProdFinEquiv (m := D) (n := P)).sum_comp]
  rw [Fintype.sum_prod_type]
  refine Finset.sum_congr rfl fun d _ => Finset.sum_congr rfl fun p _ => ?_
  simp only [finProdFinEquiv_apply_val]
  congr 1
  ring

/-- A row of two blocks of `D * P` features each, summed column by column: for each `p` the first block's
    column and the second block's column. -/
theorem sum_two_blocks (D P : ℕ) (f : ℕ → M) :
    ∑ n : Fin (D * P + D * P), f n.val
      = ∑ p : Fin P, (∑ d : Fin D, f (P * d.val + p.val) + ∑ d : Fin D, f (D * P + (P * d.val + p.val))) := by
  rw [Fin.sum_univ_add]
  simp only [Fin.val_castAdd, Fin.val_natAdd]
  rw [sum_block D P f, sum_block D P fun n => f (D * P + n), ← Finset.sum_add_distrib]

/-- A sum over `p < Q + Q` is the sum of its two halves. -/
theorem sum_halves (Q : ℕ) (g : ℕ → M) :
    ∑ p : Fin (Q + Q), g p.val = ∑ p : Fin Q, g p.val + ∑ p : Fin Q, g (Q + p.val) := by
  rw [Fin.sum_univ_add]
  simp only [Fin.val_castAdd, Fin.val_natAdd]

end Cert.LibFlattenSum
-- ==== Proof.MlpSpec.lean ====
/-
  The gated MLP as one function of its four arrays, on the extended reals, and its sum over the hidden axis
  regrouped by slices.

  With X the [8192, 2048] activations (one row per token), Wg and Wu the [8192, 2048] gate and up weights (one row
  per hidden unit) and Wd the [2048, 8192] down weights, hidden unit h at row R has gate pre-activation
  g = Σ_d X(R, d) · Wg(h, d) and up pre-activation u = Σ_d X(R, d) · Wu(h, d); the gated value is g · logistic g · u
  and the output entry (R, n) is Σ_h gated(R, h) · Wd(n, h). The 8192 hidden units are 32 slices of 256: summing
  slice by slice is the same sum, addition on the extended reals being commutative and associative (no finiteness
  is needed).
-/
import Idealize.ShloMosaic.PureOps.Ideal
import Idealize.ShloMosaic.Lib.ValueIdx
import proofs.«152820_j5214090297425_2_alg».proof.Proof.LibFlattenSum

noncomputable section

namespace Cert.MlpSpec

open Idealize.ShloMosaic Idealize.ShloMosaic.ValueIdx

abbrev SRows : Shape := ⟨2, ![8192, 2048]⟩
abbrev SDown : Shape := ⟨2, ![2048, 8192]⟩

/-- A pre-activation: row `R` of the activations against weight row `h`. -/
def act (X W : SRows.Idx → EReal) (R h : Fin 8192) : EReal := ∑ d : Fin 2048, X (ix2 R d) * W (ix2 h d)

/-- The gated value of hidden unit `h` at row `R`: silu of the gate times the up projection. -/
def gated (X Wg Wu : SRows.Idx → EReal) (R h : Fin 8192) : EReal :=
  act X Wg R h * Ideal.logistic (act X Wg R h) * act X Wu R h

/-- The gated MLP. -/
def mlp (X Wg Wu : SRows.Idx → EReal) (Wd : SDown.Idx → EReal) : SRows.Idx → EReal :=
  fun i => ∑ h : Fin 8192, gated X Wg Wu (i 0) h * Wd (ix2 (i 1) h)

abbrev SCube : Shape := ⟨3, ![4, 2048, 2048]⟩

/-- The [4, 2048, 2048] activations read as 8192 rows: row `R` is row `R % 2048` of batch `R / 2048`. -/
def rows (A : SCube.Idx → EReal) : SRows.Idx → EReal :=
  fun j => A (ix3 (⟨(j 0).val / 2048, by have h : (j 0).val < 8192 := (j 0).isLt; omega⟩ : Fin 4)
    (⟨(j 0).val % 2048, by omega⟩ : Fin 2048) (j 1))

/-- The whole program's result: the gated MLP of the flattened activations, read back by batch and row. -/
def result (A0 : SCube.Idx → EReal) (A1 A2 : SRows.Idx → EReal) (A3 : SDown.Idx → EReal) : SCube.Idx → EReal :=
  fun i => mlp (rows A0) A1 A2 A3
    (ix2 (⟨2048 * (i 0).val + (i 1).val, by
      have h0 : (i 0).val < 4 := (i 0).isLt
      have h1 : (i 1).val < 2048 := (i 1).isLt
      omega⟩ : Fin 8192) (i 2))

/-- A pre-activation over the flattened rows, read on the cube: row `R = 2048 · bb + s` is row `s` of batch `bb`. -/
theorem act_rows (A : SCube.Idx → EReal) (W : SRows.Idx → EReal) (bb : Fin 4) (s : Fin 2048) (h R : Fin 8192)
    (hR : R.val = 2048 * bb.val + s.val) :
    ∑ d : Fin 2048, A (ix3 bb s d) * W (ix2 h d) = act (rows A) W R h := by
  have hbb := bb.isLt
  have hs := s.isLt
  unfold act rows
  refine Finset.sum_congr rfl fun d _ => ?_
  have e : (ix3 bb s d : SCube.Idx) = ix3 (⟨R.val / 2048, by omega⟩ : Fin 4) (⟨R.val % 2048, by omega⟩ : Fin 2048) d :=
    funext fun a => Fin.ext (by
      match a with
      | ⟨0, _⟩ => show bb.val = R.val / 2048; omega
      | ⟨1, _⟩ => show s.val = R.val % 2048; omega
      | ⟨2, _⟩ => rfl)
  rw [e]

/-- Hidden unit `k` of slice `b`. -/
def hid (b : Fin 32) (k : Fin 256) : Fin 8192 := ⟨256 * b.val + k.val, by have := b.isLt; have := k.isLt; omega⟩

/-- Slice `b`'s part of the output entry (R, n). -/
def slice (X Wg Wu : SRows.Idx → EReal) (Wd : SDown.Idx → EReal) (R : Fin 8192) (n : Fin 2048) (b : Fin 32) : EReal :=
  ∑ k : Fin 256, gated X Wg Wu R (hid b k) * Wd (ix2 n (hid b k))

/-- The sum over the hidden axis is the sum of the 32 slices' parts. -/
theorem mlp_slices (X Wg Wu : SRows.Idx → EReal) (Wd : SDown.Idx → EReal) (R : Fin 8192) (n : Fin 2048) :
    mlp X Wg Wu Wd (ix2 R n) = ∑ b : Fin 32, slice X Wg Wu Wd R n b := by
  let f : ℕ → EReal := fun j => if h : j < 8192 then gated X Wg Wu R ⟨j, h⟩ * Wd (ix2 n ⟨j, h⟩) else 0
  have e1 : mlp X Wg Wu Wd (ix2 R n) = ∑ j : Fin (32 * 256), f j.val := by
    show ∑ h : Fin 8192, gated X Wg Wu R h * Wd (ix2 n h) = ∑ j : Fin 8192, f j.val
    refine Finset.sum_congr rfl fun h _ => ?_
    show _ = f h.val
    simp only [f]
    rw [dif_pos h.isLt]
  rw [e1, Cert.LibFlattenSum.sum_block 32 256 f, Finset.sum_comm]
  refine Finset.sum_congr rfl fun b _ => Finset.sum_congr rfl fun k _ => ?_
  have hb : 256 * b.val + k.val < 8192 := (hid b k).isLt
  simp only [f]
  rw [dif_pos hb]
  rfl

end Cert.MlpSpec

end
-- ==== Proof.KIChain.lean ====
/-
  The gated-MLP kernel's output array after the run, on the extended reals. A row tile's output block is reset at
  the first hidden slice and added to at each later one, so after slice b of row tile a it holds the sum of the
  parts of slices 0..b; each part, read at an entry through the windows' blocks, is that slice's share of the
  gated MLP of the arrays the region finds; the block is written back after slice 31, when the sum over the
  slices is the whole sum over the hidden axis; and the eight row tiles cover the array.
-/
import proofs.«152820_j5214090297425_2_alg».proof.Proof.KIPieces
import proofs.«152820_j5214090297425_2_alg».proof.Proof.KIMatmul
import proofs.«152820_j5214090297425_2_alg».proof.Proof.MlpSpec

set_option maxRecDepth 16384

noncomputable section

namespace Cert.KernelIdeal.Acc

open Idealize.ShloMosaic Idealize.ShloMosaic.TcCoe Idealize.ShloMosaic.ValueIdx Idealize.SL.Sem
open Idealize.ShloMosaic.Pipeline (Dat)
open Cert.KernelIdeal Cert.KernelIdeal.Gen Cert.MlpSpec

variable (m : (ℓ : Loc nD τ sig) → Buf (Elt Ideal) ℓ)

/-- The printed index maps over the 8 × 32 grid: the activations' and the output's row tile follow the first
    coordinate, the three weight slices the second. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val % 32 ∧ win0_2.index t (1 : Fin 2) = 0
    ∧ win0_3.index t (0 : Fin 2) = 0 ∧ win0_3.index t (1 : Fin 2) = t.val % 32
    ∧ win0_4.index t (0 : Fin 2) = t.val / 32 ∧ win0_4.index t (1 : Fin 2) = 0 :=
  (by decide +kernel : ∀ t : Fin grid0.N, _)

/-! ## The windows' blocks read at an entry -/

/-- Row r of the activations' block at point t is row 1024 · (t / 32) + r of the array. -/
theorem blk0_apply (c : Dev nD) (t : Fin cfg0.N) (r : Fin 1024) (d : Fin 2048) (R : Fin 8192)
    (hR : R.val = 1024 * (t.val / 32) + r.val) :
    (iblk m c 0 t : Vec Ideal S1024x2048 .bf16) (ix2 r d) = V m c main_v1 (ix2 R d) := by
  obtain ⟨e0, e1, -⟩ := idx_facts t
  unfold iblk
  rw [View.read_apply]
  refine congrArg (V m c main_v1) (funext fun a => Fin.ext ?_)
  match a with
  | ⟨0, _⟩ => show win0_0.index t (0 : Fin 2) * 1024 + 1 * r.val = R.val; rw [e0, hR]; omega
  | ⟨1, _⟩ => show win0_0.index t (1 : Fin 2) * 2048 + 1 * d.val = d.val; rw [e1]; omega

/-- Row k of the gate weights' block at point t is row 256 · (t % 32) + k of the array. -/
theorem blk1_apply (c : Dev nD) (t : Fin cfg0.N) (k : Fin 256) (d : Fin 2048) (H : Fin 8192)
    (hH : H.val = 256 * (t.val % 32) + k.val) :
    (iblk m c 1 t : Vec Ideal S256x2048 .bf16) (ix2 k d) = V m c main_v2 (ix2 H d) := by
  obtain ⟨-, -, e0, e1, -⟩ := idx_facts t
  unfold iblk
  rw [View.read_apply]
  refine congrArg (V m c main_v2) (funext fun a => Fin.ext ?_)
  match a with
  | ⟨0, _⟩ => show win0_1.index t (0 : Fin 2) * 256 + 1 * k.val = H.val; rw [e0, hH]; omega
  | ⟨1, _⟩ => show win0_1.index t (1 : Fin 2) * 2048 + 1 * d.val = d.val; rw [e1]; omega

/-- The same for the up weights. -/
theorem blk2_apply (c : Dev nD) (t : Fin cfg0.N) (k : Fin 256) (d : Fin 2048) (H : Fin 8192)
    (hH : H.val = 256 * (t.val % 32) + k.val) :
    (iblk m c 2 t : Vec Ideal S256x2048 .bf16) (ix2 k d) = V m c main_v3 (ix2 H d) := by
  obtain ⟨-, -, -, -, e0, e1, -⟩ := idx_facts t
  unfold iblk
  rw [View.read_apply]
  refine congrArg (V m c main_v3) (funext fun a => Fin.ext ?_)
  match a with
  | ⟨0, _⟩ => show win0_2.index t (0 : Fin 2) * 256 + 1 * k.val = H.val; rw [e0, hH]; omega
  | ⟨1, _⟩ => show win0_2.index t (1 : Fin 2) * 2048 + 1 * d.val = d.val; rw [e1]; omega

/-- Column k of the down weights' block at point t is column 256 · (t % 32) + k of the array. -/
theorem blk3_apply (c : Dev nD) (t : Fin cfg0.N) (n : Fin 2048) (k : Fin 256) (H : Fin 8192)
    (hH : H.val = 256 * (t.val % 32) + k.val) :
    (iblk m c 3 t : Vec Ideal S2048x256 .bf16) (ix2 n k) = V m c main_v4 (ix2 n H) := by
  obtain ⟨-, -, -, -, -, -, e0, e1, -⟩ := idx_facts t
  unfold iblk
  rw [View.read_apply]
  refine congrArg (V m c main_v4) (funext fun a => Fin.ext ?_)
  match a with
  | ⟨0, _⟩ => show win0_3.index t (0 : Fin 2) * 2048 + 1 * n.val = n.val; rw [e0]; omega
  | ⟨1, _⟩ => show win0_3.index t (1 : Fin 2) * 256 + 1 * k.val = H.val; rw [e1, hH]; omega

/-! ## A slice's contribution is its share of the gated MLP -/

/-- Over any blocks that read the arrays at row R and at the hidden units of slice b, the body's contribution at
    entry (r, n) is slice b's part of the gated MLP at (R, n). -/
theorem pay1_slice (x0 : Vec Ideal S1024x2048 .bf16) (x1 x2 : Vec Ideal S256x2048 .bf16) (x3 : Vec Ideal S2048x256 .bf16)
    (X Wg Wu : SRows.Idx → EReal) (Wd : SDown.Idx → EReal) (r : Fin 1024) (n : Fin 2048) (R : Fin 8192) (b : Fin 32)
    (h0 : ∀ d, x0 (ix2 r d) = X (ix2 R d)) (h1 : ∀ k d, x1 (ix2 k d) = Wg (ix2 (hid b k) d))
    (h2 : ∀ k d, x2 (ix2 k d) = Wu (ix2 (hid b k) d)) (h3 : ∀ k, x3 (ix2 n k) = Wd (ix2 n (hid b k))) :
    k0_pay1 (F := Ideal) x0 x1 x2 x3 (ix2 r n) = slice X Wg Wu Wd R n b := by
  rw [pay1_apply]
  unfold slice gated act
  simp only [h0, h1, h2, h3]

/-- Slice b's part of row tile a at entry (r, n), as a total function of the two positions. -/
def part (c : Dev nD) (a b : ℕ) (r : Fin 1024) (n : Fin 2048) : EReal :=
  if h : a < 8 ∧ b < 32 then
    slice (V m c main_v1) (V m c main_v2) (V m c main_v3) (V m c main_v4) ⟨1024 * a + r.val, by have := r.isLt; omega⟩ n ⟨b, h.2⟩
  else 0

/-- The body's contribution at grid point t. -/
theorem pay_at (c : Dev nD) (t : Fin cfg0.N) (r : Fin 1024) (n : Fin 2048) :
    k0_pay1 (F := Ideal) (iblk m c 0 t) (iblk m c 1 t) (iblk m c 2 t) (iblk m c 3 t) (ix2 r n)
      = part m c (t.val / 32) (t.val % 32) r n := by
  have hN : t.val < 256 := lt_of_lt_of_eq t.isLt (show cfg0.N = 256 from N_0)
  have hab : t.val / 32 < 8 ∧ t.val % 32 < 32 := ⟨by omega, by omega⟩
  unfold part
  rw [dif_pos hab]
  exact pay1_slice _ _ _ _ _ _ _ _ r n _ _
    (fun d => blk0_apply m c t r d _ rfl)
    (fun k d => blk1_apply m c t k d _ rfl)
    (fun k d => blk2_apply m c t k d _ rfl)
    (fun k => blk3_apply m c t n k _ rfl)

/-! ## The running sum -/

/-- After grid position n the output block holds the parts of the slices so far of its row tile. -/
theorem outsAt_sum (c : Dev nD) (r : Fin 1024) (col : Fin 2048) : ∀ (n : ℕ) (h : n < cfg0.N),
    outsAt m c n h (ix2 r col) = ∑ b ∈ Finset.range (n % 32 + 1), part m c (n / 32) b r col
  | 0, h => by
    rw [outsAt_first m c ⟨0, h⟩ (Nat.zero_mod _), outFirst_eq, pay_at]
    simp
  | n + 1, h => by
    by_cases h0 : (n + 1) % 32 = 0
    · rw [outsAt_first m c ⟨n + 1, h⟩ h0, outFirst_eq, pay_at]
      show part m c ((n + 1) / 32) ((n + 1) % 32) r col = _
      rw [h0]
      simp
    · rw [outsAt_later m c ⟨n + 1, h⟩ h0, outLater_eq, addf_apply, pay_at]
      show outsAt m c n _ (ix2 r col) + part m c ((n + 1) / 32) ((n + 1) % 32) r col = _
      rw [outsAt_sum c r col n]
      have e1 : (n + 1) % 32 = n % 32 + 1 := by omega
      have e2 : (n + 1) / 32 = n / 32 := by omega
      rw [e1, e2, Finset.sum_range_succ (fun b => part m c (n / 32) b r col) (n % 32 + 1)]

/-- After the last slice of a row tile the block holds the gated MLP at the tile's rows. -/
theorem outsAt_last (c : Dev nD) (t : Fin cfg0.N) (h31 : t.val % 32 = 31) (y : S1024x2048.Idx) (R : Fin 8192)
    (hR : R.val = 1024 * (t.val / 32) + (y 0).val) :
    outsAt m c t.val t.isLt y = mlp (V m c main_v1) (V m c main_v2) (V m c main_v3) (V m c main_v4) (ix2 R (y 1)) := by
  have hN : t.val < 256 := lt_of_lt_of_eq t.isLt (show cfg0.N = 256 from N_0)
  have ha : t.val / 32 < 8 := by omega
  obtain ⟨r, col, rfl⟩ : ∃ (r : Fin 1024) (col : Fin 2048), y = ix2 r col := ⟨y 0, y 1, eq_ix2 y⟩
  rw [outsAt_sum m c r col t.val t.isLt, h31, mlp_slices, Finset.sum_range (fun b => part m c (t.val / 32) b r col)]
  refine Finset.sum_congr rfl fun b _ => ?_
  unfold part
  rw [dif_pos ⟨ha, b.isLt⟩]
  have eR : R = ⟨1024 * (t.val / 32) + r.val, by have := r.isLt; omega⟩ := Fin.ext hR
  rw [eR]

/-! ## What is written back, and the array after the run -/

/-- The write-back after a row tile's last slice writes the gated MLP's rows of that tile. -/
theorem flushed_eq (c : Dev nD) (t : Fin cfg0.N) (hf : (cfg0.win 4).flush t = true) :
    (dats m 0 c).flushed 4 t = ((cfg0.win 4).blk t).view.read (Elt Ideal)
      (mlp (V m c main_v1) (V m c main_v2) (V m c main_v3) (V m c main_v4)) := by
  have h31 : t.val % 32 = 31 := (flush0_4 t).mp hf
  have hN : t.val < 256 := lt_of_lt_of_eq t.isLt (show cfg0.N = 256 from N_0)
  obtain ⟨-, -, -, -, -, -, -, -, e0, e1⟩ := idx_facts t
  show (cfg0.win 4).cut (grid0.coords t) ((dats m 0 c).after 4 t) = _
  rw [after_4]
  funext y
  have hy0 : (y 0).val < 1024 := (y 0).isLt
  have hy1 : (y 1).val < 2048 := (y 1).isLt
  have hemb : ((cfg0.win 4).blk t).view.emb y = ix2 (⟨1024 * (t.val / 32) + (y 0).val, by omega⟩ : Fin 8192) (y 1) := by
    funext a; apply Fin.ext
    match a with
    | ⟨0, _⟩ => show win0_4.index t (0 : Fin 2) * 1024 + 1 * (y 0).val = 1024 * (t.val / 32) + (y 0).val; rw [e0]; omega
    | ⟨1, _⟩ => show win0_4.index t (1 : Fin 2) * 2048 + 1 * (y 1).val = (y 1).val; rw [e1]; omega
  show outsAt m c t.val t.isLt y = mlp _ _ _ _ (((cfg0.win 4).blk t).view.emb y)
  rw [hemb]
  exact outsAt_last m c t h31 y _ rfl

/-- An index of the output array is in point t's block iff each coordinate is in the block's range. -/
theorem mem_blk (t : Fin cfg0.N) (i : S8192x2048.Idx) :
    i ∈ ((cfg0.win 4).blk t).view.set ↔ ∀ a : Fin 2, win0_4.index t a * S1024x2048.size a ≤ (i a).val ∧ (i a).val < win0_4.index t a * S1024x2048.size a + S1024x2048.size a := by
  show i ∈ ((View.whole main_v5).slice (win0_4.rect t)).set ↔ _
  rw [View.set_slice_whole, Rect.mem_set_unit]
  exact Iff.rfl

/-- The output array after the run is the gated MLP of the arrays the region finds: row R lies in row tile
    R / 1024, written back after that tile's last slice. -/
theorem final (c : Dev nD) : (dats m 0 c).arrAt 4 cfg0.N
    = mlp (V m c main_v1) (V m c main_v2) (V m c main_v3) (V m c main_v4) :=
  (dats m 0 c).arrAt_eq_of_cover 4 _ (flushed_eq m c) fun i => by
    have hi0 : (i 0).val < 8192 := (i 0).isLt
    have hi1 : (i 1).val < 2048 := (i 1).isLt
    have hN : cfg0.N = 256 := N_0
    have ht : 32 * ((i 0).val / 1024) + 31 < cfg0.N := by rw [hN]; omega
    obtain ⟨-, -, -, -, -, -, -, -, e0, e1⟩ := idx_facts ⟨32 * ((i 0).val / 1024) + 31, ht⟩
    refine ⟨⟨32 * ((i 0).val / 1024) + 31, ht⟩, (flush0_4 _).mpr (by show (32 * ((i 0).val / 1024) + 31) % 32 = 31; omega), ?_⟩
    rw [mem_blk]
    intro a
    match a with
    | ⟨0, _⟩ =>
      show win0_4.index ⟨32 * ((i 0).val / 1024) + 31, ht⟩ (0 : Fin 2) * 1024 ≤ (i 0).val ∧ (i 0).val < win0_4.index ⟨32 * ((i 0).val / 1024) + 31, ht⟩ (0 : Fin 2) * 1024 + 1024
      rw [e0]
      show (32 * ((i 0).val / 1024) + 31) / 32 * 1024 ≤ (i 0).val ∧ (i 0).val < (32 * ((i 0).val / 1024) + 31) / 32 * 1024 + 1024
      omega
    | ⟨1, _⟩ =>
      show win0_4.index ⟨32 * ((i 0).val / 1024) + 31, ht⟩ (1 : Fin 2) * 2048 ≤ (i 1).val ∧ (i 1).val < win0_4.index ⟨32 * ((i 0).val / 1024) + 31, ht⟩ (1 : Fin 2) * 2048 + 2048
      rw [e1]
      omega

end Cert.KernelIdeal.Acc

end
-- ==== Proof.LibRowsFlatten.lean ====
/-
  Rows flattened and unflattened. An [a, b, c] array cast to [N, c] with N = a · b keeps the row-major order, so
  row R = i · b + j of the flat array is row (i, j) of the cube, entry by entry; and the cast back reads the flat
  array at that row.
-/
import Idealize.ShloMosaic.Lib.Pipeline.Value
import Idealize.ShloMosaic.Lib.ValueIdx

namespace Cert.LibRowsFlatten

open Idealize.ShloMosaic Idealize.ShloMosaic.ValueIdx

variable {α : Type}

/-- An `[a, b, c]` array cast to `[N, c]` reads, at `(R, k)` with `R = i · b + j`, the operand at `(i, j, k)`. -/
theorem shapeCast_flatten_apply {a b c N : ℕ} (x : (⟨3, ![a, b, c]⟩ : Shape).Idx → α)
    (h : (⟨3, ![a, b, c]⟩ : Shape).ShapeCasts ⟨2, ![N, c]⟩) (i : Fin a) (j : Fin b) (k : Fin c) (R : Fin N)
    (hR : R.val = i.val * b + j.val) :
    shapeCast ⟨2, ![N, c]⟩ x h (ix2 R k) = x (ix3 i j k) :=
  shapeCast_apply x h _ _ (by
    rw [Shape.rowMajor_val_three, Shape.rowMajor_val_two]
    show (i.val * b + j.val) * c + k.val = R.val * c + k.val
    rw [hR])

/-- An `[N, c]` array cast to `[a, b, c]` reads, at `(i, j, k)`, the operand at `(R, k)` with `R = i · b + j`. -/
theorem shapeCast_unflatten_apply {a b c N : ℕ} (y : (⟨2, ![N, c]⟩ : Shape).Idx → α)
    (h : (⟨2, ![N, c]⟩ : Shape).ShapeCasts ⟨3, ![a, b, c]⟩) (i : Fin a) (j : Fin b) (k : Fin c) (R : Fin N)
    (hR : R.val = i.val * b + j.val) :
    shapeCast ⟨3, ![a, b, c]⟩ y h (ix3 i j k) = y (ix2 R k) :=
  shapeCast_apply y h _ _ (by
    rw [Shape.rowMajor_val_three, Shape.rowMajor_val_two]
    show R.val * c + k.val = (i.val * b + j.val) * c + k.val
    rw [hR])

end Cert.LibRowsFlatten
-- ==== Proof.KIValue.lean ====
/-
  The gated-MLP kernel's program read whole, on the extended reals: the host lines before the region flatten the
  activations to 8192 rows and change the four arrays' float format (the identity on the extended reals), the
  region leaves the gated MLP of those arrays in its output array, and the host line after it reads that array
  back by batch and row. So the program's result is the gated MLP of its four arguments, and the arguments end
  unchanged.
-/
import proofs.«152820_j5214090297425_2_alg».proof.Proof.KIChain
import proofs.«152820_j5214090297425_2_alg».proof.Proof.LibRowsFlatten
import Idealize.ShloMosaic.Lib.StableHlo.Run
import Idealize.ShloMosaic.Lib.Pipeline.FrameSuffix

set_option maxRecDepth 16384

noncomputable section

namespace Cert.KernelIdeal.Acc

open Idealize.ShloMosaic Idealize.ShloMosaic.TcCoe Idealize.ShloMosaic.ValueIdx Idealize.SL.Sem
open Idealize.ShloMosaic.Pipeline (Dat)
open Cert.KernelIdeal Cert.KernelIdeal.Gen Cert.MlpSpec

open Idealize.ShloMosaic.Tactic
variable (m : (ℓ : Loc nD τ sig) → Buf (Elt Ideal) ℓ) (ρ : Dev nD → PrngReg)

/-! ## The arrays the region finds -/

/-- The activations as the region finds them: the first argument's rows, flattened. -/
theorem V_v1 (c : Dev nD) : V m c main_v1 = rows (m ((c : Thread nD τ).loc main_arg0)) := by
  have e : V m c main_v1 = (truncf (F := Ideal) .bf16 (shapeCast S8192x2048 (m ((c : Thread nD τ).loc main_arg0)) shapeCasts_S4x2048x2048_S8192x2048) bitsLt_bf16_f32 : FVec Ideal S8192x2048 .bf16) := by
    show StableHlo.after hostOps0 (fun b => m (c, b)) (Proc.devRef .tc main_v1) = _
    after_results
    rfl
  rw [e]
  funext j
  obtain ⟨R, d, rfl⟩ : ∃ (R : Fin 8192) (d : Fin 2048), j = ix2 R d := ⟨j 0, j 1, eq_ix2 j⟩
  have hR := R.isLt
  show shapeCast S8192x2048 (m ((c : Thread nD τ).loc main_arg0)) shapeCasts_S4x2048x2048_S8192x2048 (ix2 R d) = _
  exact Cert.LibRowsFlatten.shapeCast_flatten_apply _ _ (⟨R.val / 2048, by omega⟩ : Fin 4) (⟨R.val % 2048, by omega⟩ : Fin 2048) d R
    (by show R.val = R.val / 2048 * 2048 + R.val % 2048; omega)

/-- The gate weights as the region finds them: the second argument. -/
theorem V_v2 (c : Dev nD) : V m c main_v2 = m ((c : Thread nD τ).loc main_arg1) := by
  show StableHlo.after hostOps0 (fun b => m (c, b)) (Proc.devRef .tc main_v2) = _
  after_results
  rfl

/-- The up weights: the third argument. -/
theorem V_v3 (c : Dev nD) : V m c main_v3 = m ((c : Thread nD τ).loc main_arg2) := by
  show StableHlo.after hostOps0 (fun b => m (c, b)) (Proc.devRef .tc main_v3) = _
  after_results
  rfl

/-- The down weights: the fourth argument. -/
theorem V_v4 (c : Dev nD) : V m c main_v4 = m ((c : Thread nD τ).loc main_arg3) := by
  show StableHlo.after hostOps0 (fun b => m (c, b)) (Proc.devRef .tc main_v4) = _
  after_results
  rfl

/-! ## The result -/

/-- The result buffer after the host line that follows the region: the gated MLP of the four arguments. -/
theorem tail_eq (c : Dev nD) : Pipeline.afterTail₀ cfgs (dats m) 0 (V0 m) [hostOps1] c main_v6
    = result (m ((c : Thread nD τ).loc main_arg0)) (m ((c : Thread nD τ).loc main_arg1))
        (m ((c : Thread nD τ).loc main_arg2)) (m ((c : Thread nD τ).loc main_arg3)) := by
  have hw : Pipeline.withArrays spec0 c (V0 m c) (fun w => (dats m 0 c).arrAt w cfg0.N) (Proc.devRef .tc main_v5)
      = mlp (V m c main_v1) (V m c main_v2) (V m c main_v3) (V m c main_v4) :=
    (Pipeline.withArrays_arr spec0 launch0.win.arr_inj c _ _ 4).trans (final m c)
  unfold Pipeline.afterTail₀
  show StableHlo.after hostOps1 _ (Proc.devRef .tc main_v6) = _
  after_results
  funext i
  show shapeCast S4x2048x2048 (Pipeline.withArrays spec0 c (V0 m c) (fun w => (dats m 0 c).arrAt w cfg0.N) (Proc.devRef .tc main_v5))
    shapeCasts_S8192x2048_S4x2048x2048 i = _
  rw [hw, V_v1, V_v2, V_v3, V_v4]
  obtain ⟨bb, s, n, rfl⟩ : ∃ (bb : Fin 4) (s : Fin 2048) (n : Fin 2048), i = ix3 bb s n := ⟨i 0, i 1, i 2, eq_ix3 i⟩
  have hbb := bb.isLt
  have hs := s.isLt
  exact Cert.LibRowsFlatten.shapeCast_unflatten_apply _ _ bb s n (⟨2048 * bb.val + s.val, by omega⟩ : Fin 8192)
    (by show 2048 * bb.val + s.val = bb.val * 2048 + s.val; omega)

/-- The program's run, read: the result at the gated MLP of the arguments, the arguments unchanged. -/
theorem run : θ_run defs (onTc (τ := τ) (main (F := Ideal))) ⟨m, fun _ => 0, ρ⟩ fun r => ∀ c : Dev nD,
      r.2.mem ((c.tc : Thread nD τ).loc main_v6) = result (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Acc

end
-- ==== Proof.RefMlp.lean ====
/-
  The reference program computes the gated MLP: two contractions of the activations with the gate and up
  weights over the model axis, the gate passed through x · (1 / (1 + e^(-x))) — the logistic function spelt out
  in the host's operations —, the product with the up projection, and the contraction with the down weights over
  the hidden axis. Read index by index, its result is the gated MLP of the flattened activations at row
  2048 · batch + position.
-/
import proofs.«152820_j5214090297425_2_alg».proof.Proof.Gen.ReferenceIdeal.Read
import proofs.«152820_j5214090297425_2_alg».proof.Proof.MlpSpec
import Idealize.ShloMosaic.PureOps.IdealRules

noncomputable section

namespace Cert.ReferenceIdeal.RefValue

open Idealize.ShloMosaic Idealize.ShloMosaic.ValueIdx
open Cert.ReferenceIdeal Cert.ReferenceIdeal.Gen Cert.ReferenceIdeal.Read Cert.MlpSpec

/-- The word the host's logistic expansion uses twice denotes the number one. -/
theorem one_f32 : Ideal.ofBits .f32 0x3F800000#32 = 1 := IdealRules.sign_bit.ideal_onePat .f32

/-- The gate contraction at (batch, position, hidden unit). -/
theorem gate_eq (x0 : SCube.Idx → EReal) (x1 : SRows.Idx → EReal) (bb : Fin 4) (s : Fin 2048) (h R : Fin 8192)
    (hR : R.val = 2048 * bb.val + s.val) :
    val_main_v0 (F := Ideal) x0 x1 (ix3 bb s h) = act (rows x0) x1 R h := by
  rw [val_main_v0_apply, ← act_rows x0 x1 bb s h R hR]
  refine Finset.sum_congr rfl fun d _ => ?_
  have el : lidx_main_v0 (ix3 bb s h) d = ix3 bb s d := funext fun a => Fin.ext (by
    match a with
    | ⟨0, _⟩ => rfl
    | ⟨1, _⟩ => rfl
    | ⟨2, _⟩ => rfl)
  have er : ridx_main_v0 (ix3 bb s h) d = ix2 h d := funext fun a => Fin.ext (by
    match a with
    | ⟨0, _⟩ => rfl
    | ⟨1, _⟩ => rfl)
  rw [el, er]

/-- The up contraction at (batch, position, hidden unit). -/
theorem up_eq (x0 : SCube.Idx → EReal) (x2 : SRows.Idx → EReal) (bb : Fin 4) (s : Fin 2048) (h R : Fin 8192)
    (hR : R.val = 2048 * bb.val + s.val) :
    val_main_v1 (F := Ideal) x0 x2 (ix3 bb s h) = act (rows x0) x2 R h := by
  rw [val_main_v1_apply, ← act_rows x0 x2 bb s h R hR]
  refine Finset.sum_congr rfl fun d _ => ?_
  have el : lidx_main_v1 (ix3 bb s h) d = ix3 bb s d := funext fun a => Fin.ext (by
    match a with
    | ⟨0, _⟩ => rfl
    | ⟨1, _⟩ => rfl
    | ⟨2, _⟩ => rfl)
  have er : ridx_main_v1 (ix3 bb s h) d = ix2 h d := funext fun a => Fin.ext (by
    match a with
    | ⟨0, _⟩ => rfl
    | ⟨1, _⟩ => rfl)
  rw [el, er]

/-- The gated product at (batch, position, hidden unit): the host's x · (1 / (1 + e^(-x))) is x · logistic x. -/
theorem gated_eq (x0 : SCube.Idx → EReal) (x1 x2 : SRows.Idx → EReal) (bb : Fin 4) (s : Fin 2048) (h R : Fin 8192)
    (hR : R.val = 2048 * bb.val + s.val) :
    val_main_v3 (F := Ideal) x0 x1 x2 (ix3 bb s h) = gated (rows x0) x1 x2 R h := by
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, gate_eq x0 x1 bb s h R hR, up_eq x0 x2 bb s h R hR]
  unfold gated
  show act (rows x0) x1 R h * Ideal.div (Ideal.ofBits .f32 0x3F800000#32) (Ideal.ofBits .f32 0x3F800000#32 + Ideal.exp (-(act (rows x0) x1 R h)))
      * act (rows x0) x2 R h = _
  rw [one_f32]
  rfl

/-- The reference's result is the gated MLP of its four arguments. -/
theorem result_eq (x0 : SCube.Idx → EReal) (x1 x2 : SRows.Idx → EReal) (x3 : SDown.Idx → EReal) :
    val_main_v4 (F := Ideal) x0 x1 x2 x3 = result x0 x1 x2 x3 := by
  funext i
  obtain ⟨bb, s, n, rfl⟩ : ∃ (bb : Fin 4) (s : Fin 2048) (n : Fin 2048), i = ix3 bb s n := ⟨i 0, i 1, i 2, eq_ix3 i⟩
  have hbb := bb.isLt
  have hs := s.isLt
  rw [val_main_v4_apply]
  unfold result mlp
  refine Finset.sum_congr rfl fun h _ => ?_
  have el : lidx_main_v4 (ix3 bb s n) h = ix3 bb s h := funext fun a => Fin.ext (by
    match a with
    | ⟨0, _⟩ => rfl
    | ⟨1, _⟩ => rfl
    | ⟨2, _⟩ => rfl)
  have er : ridx_main_v4 (ix3 bb s n) h = ix2 n h := funext fun a => Fin.ext (by
    match a with
    | ⟨0, _⟩ => rfl
    | ⟨1, _⟩ => rfl)
  rw [el, er, gated_eq x0 x1 x2 bb s h (⟨2048 * bb.val + s.val, by omega⟩ : Fin 8192) rfl]

end Cert.ReferenceIdeal.RefValue

end
-- ==== Proof.lean ====
/-
  The gated MLP (SwiGLU) kernel against its reference, on the extended reals.

  The kernel flattens the [4, 2048, 2048] activations to 8192 rows and walks an 8 × 32 grid: a tile of 1024 rows
  against one slice of 256 of the 8192 hidden units. At each point it forms the slice's gate and up
  pre-activations (row · weight-row dot products over the 2048 model features), the gated values
  g · logistic g · u, and their product with the slice's down weights; the first slice of a row tile stores that
  into the output block, each later slice adds its own, and the block is written back after the last slice. The
  reference contracts over all 8192 hidden units at once and spells the logistic function as 1 / (1 + e^(-x)).
  Addition on the extended reals is commutative and associative, so the 32 partial sums of 256 terms are the sum
  of 8192 terms with no finiteness assumed; changes of float format are the identity there; and the two
  spellings of the logistic function are one function. Hence both programs end with the same result.

  The frames of the two kernel programs run the body once per branch (reset, accumulate) on whole staging
  buffers and thread the output block's contents through the grid by recursion on the point; the reference's
  frame is its run with the result dropped; the ideal pass rewrote nothing, so preservation is trivial.
-/
import proofs.«152820_j5214090297425_2_alg».proof.Defs
import proofs.«152820_j5214090297425_2_alg».proof.Proof.Gen.Kernel
import proofs.«152820_j5214090297425_2_alg».proof.Proof.Gen.Kernel.Skeleton
import proofs.«152820_j5214090297425_2_alg».proof.Proof.Gen.Kernel.Launch
import proofs.«152820_j5214090297425_2_alg».proof.Proof.Gen.Kernel.Points
import proofs.«152820_j5214090297425_2_alg».proof.Proof.Gen.Kernel.Frame
import proofs.«152820_j5214090297425_2_alg».proof.Proof.Gen.KernelIdeal
import proofs.«152820_j5214090297425_2_alg».proof.Proof.Gen.KernelIdeal.Skeleton
import proofs.«152820_j5214090297425_2_alg».proof.Proof.Gen.KernelIdeal.Launch
import proofs.«152820_j5214090297425_2_alg».proof.Proof.Gen.KernelIdeal.Points
import proofs.«152820_j5214090297425_2_alg».proof.Proof.Gen.KernelIdeal.Frame
import proofs.«152820_j5214090297425_2_alg».proof.Proof.Gen.ReferenceIdeal
import proofs.«152820_j5214090297425_2_alg».proof.Proof.Gen.Pre_finite_inputs
import proofs.«152820_j5214090297425_2_alg».proof.Proof.Gen.ReferenceIdeal.Run
import proofs.«152820_j5214090297425_2_alg».proof.Proof.Gen.ReferenceIdeal.Read
import proofs.«152820_j5214090297425_2_alg».proof.Proof.KFrame
import proofs.«152820_j5214090297425_2_alg».proof.Proof.KIValue
import proofs.«152820_j5214090297425_2_alg».proof.Proof.RefMlp
import Idealize.ShloMosaic.Adequacy
import Idealize.ShloMosaic.Init

noncomputable section

namespace Cert.Proof

open Idealize.ShloMosaic Idealize.SL.Sem

/-- The kernel as printed runs to the end, faults nowhere and leaves its arguments unchanged. -/
theorem frame_k : Cert.frame_Kernel := fun m ρ _ => Cert.Kernel.Acc.frame m ρ

/-- So does its idealization. -/
theorem frame_ki : Cert.frame_KernelIdeal := fun m ρ _ => Cert.KernelIdeal.Acc.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals both programs end with the gated MLP of the four arguments. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
